-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S4x4096x2 : Shape := ⟨3, ![4, 4096, 2]⟩
abbrev S64 : Shape := ⟨1, ![64]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : IVec S4x4096x2 32) (main_arg2 : IVec S64 32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  main_v3
-- ==== Kernel.lean ====
abbrev S4x4096x512 : Shape := ⟨3, ![4, 4096, 512]⟩
abbrev S4x4096x2 : Shape := ⟨3, ![4, 4096, 2]⟩
abbrev S64 : Shape := ⟨1, ![64]⟩
abbrev S16384x512 : Shape := ⟨2, ![16384, 512]⟩
abbrev S16384x2 : Shape := ⟨2, ![16384, 2]⟩
abbrev S_ : Shape := ⟨0, ![]⟩
abbrev S16384x2x1 : Shape := ⟨3, ![16384, 2, 1]⟩
abbrev S8x16384x2x512 : Shape := ⟨4, ![8, 16384, 2, 512]⟩
abbrev S256x512 : Shape := ⟨2, ![256, 512]⟩
abbrev S256x2 : Shape := ⟨2, ![256, 2]⟩
abbrev S8x256x2x512 : Shape := ⟨4, ![8, 256, 2, 512]⟩
abbrev S256x2x1 : Shape := ⟨3, ![256, 2, 1]⟩
abbrev S256x1x512 : Shape := ⟨3, ![256, 1, 512]⟩
abbrev S256x2x512 : Shape := ⟨3, ![256, 2, 512]⟩
abbrev S1x256x2x512 : Shape := ⟨4, ![1, 256, 2, 512]⟩
abbrev S8x32768x512 : Shape := ⟨3, ![8, 32768, 512]⟩

abbrev nBuf : Space → Nat
  | .hbm => 16
  | .vmem => 6
  | .smem => 0
  | _ => 0

abbrev bufTy : (tb : Table) → Fin (tcTables nBuf tb) → BufTy
  | .hbm, ⟨0, _⟩ => ⟨S4x4096x512, .f32⟩
  | .hbm, ⟨1, _⟩ => ⟨S4x4096x2, .i32⟩
  | .hbm, ⟨2, _⟩ => ⟨S64, .i32⟩
  | .hbm, ⟨3, _⟩ => ⟨S16384x512, .f32⟩
  | .hbm, ⟨4, _⟩ => ⟨S16384x2, .i32⟩
  | .hbm, ⟨5, _⟩ => ⟨S_, .i32⟩
  | .hbm, ⟨6, _⟩ => ⟨S16384x2, .i32⟩
  | .hbm, ⟨7, _⟩ => ⟨S16384x2, .i1⟩
  | .hbm, ⟨8, _⟩ => ⟨S_, .i32⟩
  | .hbm, ⟨9, _⟩ => ⟨S16384x2, .i32⟩
  | .hbm, ⟨10, _⟩ => ⟨S16384x2, .i32⟩
  | .hbm, ⟨11, _⟩ => ⟨S16384x2, .i32⟩
  | .hbm, ⟨12, _⟩ => ⟨S16384x2x1, .i32⟩
  | .hbm, ⟨13, _⟩ => ⟨S16384x2, .i32⟩
  | .hbm, ⟨14, _⟩ => ⟨S8x16384x2x512, .f32⟩
  | .hbm, ⟨15, _⟩ => ⟨S8x32768x512, .f32⟩
  | .local _ .vmem, ⟨0, _⟩ => ⟨S256x512, .f32⟩
  | .local _ .vmem, ⟨1, _⟩ => ⟨S256x512, .f32⟩
  | .local _ .vmem, ⟨2, _⟩ => ⟨S256x2, .i32⟩
  | .local _ .vmem, ⟨3, _⟩ => ⟨S256x2, .i32⟩
  | .local _ .vmem, ⟨4, _⟩ => ⟨S8x256x2x512, .f32⟩
  | .local _ .vmem, ⟨5, _⟩ => ⟨S8x256x2x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x512_S16384x512 : S4x4096x512.ShapeCasts S16384x512
  shapeCasts_S4x4096x2_S16384x2 : S4x4096x2.ShapeCasts S16384x2
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x2_S256x2_0_0 : ∀ a, (![0, 0] : Fin 2 → Nat) a + S256x2.size a ≤ S256x2.size a
  h_S256x2 : 0 < S256x2.numel
  shapeCasts_S256x2_S256x2 : S256x2.ShapeCasts S256x2
  natLt_1_32 : 1 < 32
  shapeCasts_S256x2_S256x2x1 : S256x2.ShapeCasts S256x2x1
  shapeCasts_S256x512_S256x1x512 : S256x512.ShapeCasts S256x1x512
  broadcasts_S256x2x1_S256x2x512 : S256x2x1.Broadcasts S256x2x512
  broadcasts_S256x1x512_S256x2x512 : S256x1x512.Broadcasts S256x2x512
  inb_S8x256x2x512_S1x256x2x512_0_0_0_0 : ∀ a, (![0, 0, 0, 0] : Fin 4 → Nat) a + S1x256x2x512.size a ≤ S8x256x2x512.size a
  h_S1x256x2x512 : 0 < S1x256x2x512.numel
  shapeCasts_S1x256x2x512_S256x2x512 : S1x256x2x512.ShapeCasts S256x2x512
  shapeCasts_S256x2x512_S1x256x2x512 : S256x2x512.ShapeCasts S1x256x2x512
  inb_S8x256x2x512_S1x256x2x512_1_0_0_0 : ∀ a, (![1, 0, 0, 0] : Fin 4 → Nat) a + S1x256x2x512.size a ≤ S8x256x2x512.size a
  inb_S8x256x2x512_S1x256x2x512_2_0_0_0 : ∀ a, (![2, 0, 0, 0] : Fin 4 → Nat) a + S1x256x2x512.size a ≤ S8x256x2x512.size a
  inb_S8x256x2x512_S1x256x2x512_3_0_0_0 : ∀ a, (![3, 0, 0, 0] : Fin 4 → Nat) a + S1x256x2x512.size a ≤ S8x256x2x512.size a
  inb_S8x256x2x512_S1x256x2x512_4_0_0_0 : ∀ a, (![4, 0, 0, 0] : Fin 4 → Nat) a + S1x256x2x512.size a ≤ S8x256x2x512.size a
  inb_S8x256x2x512_S1x256x2x512_5_0_0_0 : ∀ a, (![5, 0, 0, 0] : Fin 4 → Nat) a + S1x256x2x512.size a ≤ S8x256x2x512.size a
  inb_S8x256x2x512_S1x256x2x512_6_0_0_0 : ∀ a, (![6, 0, 0, 0] : Fin 4 → Nat) a + S1x256x2x512.size a ≤ S8x256x2x512.size a
  inb_S8x256x2x512_S1x256x2x512_7_0_0_0 : ∀ a, (![7, 0, 0, 0] : Fin 4 → Nat) a + S1x256x2x512.size a ≤ S8x256x2x512.size a
  shapeCasts_S8x16384x2x512_S8x32768x512 : S8x16384x2x512.ShapeCasts S8x32768x512
  gather_S64_S16384x2x1_S16384x2_n_0_n_n_0_2_1_wf : GatherDims.WF S64 S16384x2x1 S16384x2 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S16384x2.size a
  hwx0_1 : ∀ i : grid0.Coords, EltTy.bits .i32 = 32 ∨ (Rect.block (s := S16384x2) S256x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x2x512.size a ≤ S8x16384x2x512.size a
  hwx0_2 : ∀ i : grid0.Coords, EltTy.bits .f32 = 32 ∨ (Rect.block (s := S8x16384x2x512) S8x256x2x512.size (cc0_transform_2 i) (hinb0_2 i)).WholeWords (EltTy.packing .f32)

variable [Facts₀]

def gather_S64_S16384x2x1_S16384x2_n_0_n_n_0_2_1 : GatherDims S64 S16384x2x1 S16384x2 where
  offsetDims := []
  collapsedSliceDims := [0]
  operandBatchingDims := []
  startIndicesBatchingDims := []
  startIndexMap := [0]
  indexVectorDim := 2
  sliceSizes := ![1]
  wf := gather_S64_S16384x2x1_S16384x2_n_0_n_n_0_2_1_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x256x2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S4x4096x2 : Shape := ⟨3, ![4, 4096, 2]⟩
abbrev S64 : Shape := ⟨1, ![64]⟩
abbrev S16384x512 : Shape := ⟨2, ![16384, 512]⟩
abbrev S16384x2 : Shape := ⟨2, ![16384, 2]⟩
abbrev S_ : Shape := ⟨0, ![]⟩
abbrev S16384x2x1 : Shape := ⟨3, ![16384, 2, 1]⟩
abbrev S1x16384x2 : Shape := ⟨3, ![1, 16384, 2]⟩
abbrev S8 : Shape := ⟨1, ![8]⟩
abbrev S8x1x1 : Shape := ⟨3, ![8, 1, 1]⟩
abbrev S8x16384x2 : Shape := ⟨3, ![8, 16384, 2]⟩
abbrev S8x16384x2x1 : Shape := ⟨4, ![8, 16384, 2, 1]⟩
abbrev S1x16384x1x512 : Shape := ⟨4, ![1, 16384, 1, 512]⟩
abbrev S8x16384x2x512 : Shape := ⟨4, ![8, 16384, 2, 512]⟩
abbrev S8x32768x512 : Shape := ⟨3, ![8, 32768, 512]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x2, .i32⟩
  | .hbm, ⟨2, _⟩ => ⟨S64, .i32⟩
  | .hbm, ⟨3, _⟩ => ⟨S16384x512, .f32⟩
  | .hbm, ⟨4, _⟩ => ⟨S16384x2, .i32⟩
  | .hbm, ⟨5, _⟩ => ⟨S_, .i32⟩
  | .hbm, ⟨6, _⟩ => ⟨S16384x2, .i32⟩
  | .hbm, ⟨7, _⟩ => ⟨S16384x2, .i1⟩
  | .hbm, ⟨8, _⟩ => ⟨S_, .i32⟩
  | .hbm, ⟨9, _⟩ => ⟨S16384x2, .i32⟩
  | .hbm, ⟨10, _⟩ => ⟨S16384x2, .i32⟩
  | .hbm, ⟨11, _⟩ => ⟨S16384x2, .i32⟩
  | .hbm, ⟨12, _⟩ => ⟨S16384x2x1, .i32⟩
  | .hbm, ⟨13, _⟩ => ⟨S16384x2, .i32⟩
  | .hbm, ⟨14, _⟩ => ⟨S1x16384x2, .i32⟩
  | .hbm, ⟨15, _⟩ => ⟨S8, .i32⟩
  | .hbm, ⟨16, _⟩ => ⟨S8x1x1, .i32⟩
  | .hbm, ⟨17, _⟩ => ⟨S8x16384x2, .i32⟩
  | .hbm, ⟨18, _⟩ => ⟨S8x16384x2, .i32⟩
  | .hbm, ⟨19, _⟩ => ⟨S8x16384x2, .i1⟩
  | .hbm, ⟨20, _⟩ => ⟨S8x16384x2, .f32⟩
  | .hbm, ⟨21, _⟩ => ⟨S8x16384x2x1, .f32⟩
  | .hbm, ⟨22, _⟩ => ⟨S1x16384x1x512, .f32⟩
  | .hbm, ⟨23, _⟩ => ⟨S8x16384x2x512, .f32⟩
  | .hbm, ⟨24, _⟩ => ⟨S8x16384x2x512, .f32⟩
  | .hbm, ⟨25, _⟩ => ⟨S8x16384x2x512, .f32⟩
  | .hbm, ⟨26, _⟩ => ⟨S8x32768x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  shapeCasts_S4x4096x512_S16384x512 : S4x4096x512.ShapeCasts S16384x512
  shapeCasts_S4x4096x2_S16384x2 : S4x4096x2.ShapeCasts S16384x2
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  bcast_S16384x2_S1x16384x2_1_2 : S16384x2.BroadcastsInDim S1x16384x2 (![1, 2] : Fin 2 → Fin S1x16384x2.rank)
  bcast_S8_S8x1x1_0 : S8.BroadcastsInDim S8x1x1 (![0] : Fin 1 → Fin S8x1x1.rank)
  bcast_S1x16384x2_S8x16384x2_0_1_2 : S1x16384x2.BroadcastsInDim S8x16384x2 (![0, 1, 2] : Fin 3 → Fin S8x16384x2.rank)
  bcast_S8x1x1_S8x16384x2_0_1_2 : S8x1x1.BroadcastsInDim S8x16384x2 (![0, 1, 2] : Fin 3 → Fin S8x16384x2.rank)
  bcast_S8x16384x2_S8x16384x2x1_0_1_2 : S8x16384x2.BroadcastsInDim S8x16384x2x1 (![0, 1, 2] : Fin 3 → Fin S8x16384x2x1.rank)
  bcast_S16384x512_S1x16384x1x512_1_3 : S16384x512.BroadcastsInDim S1x16384x1x512 (![1, 3] : Fin 2 → Fin S1x16384x1x512.rank)
  bcast_S8x16384x2x1_S8x16384x2x512_0_1_2_3 : S8x16384x2x1.BroadcastsInDim S8x16384x2x512 (![0, 1, 2, 3] : Fin 4 → Fin S8x16384x2x512.rank)
  bcast_S1x16384x1x512_S8x16384x2x512_0_1_2_3 : S1x16384x1x512.BroadcastsInDim S8x16384x2x512 (![0, 1, 2, 3] : Fin 4 → Fin S8x16384x2x512.rank)
  shapeCasts_S8x16384x2x512_S8x32768x512 : S8x16384x2x512.ShapeCasts S8x32768x512
  gather_S64_S16384x2x1_S16384x2_n_0_n_n_0_2_1_wf : GatherDims.WF S64 S16384x2x1 S16384x2 [] [0] [] [0] [] 2 ![1]

variable [Facts₀]

def gather_S64_S16384x2x1_S16384x2_n_0_n_n_0_2_1 : GatherDims S64 S16384x2x1 S16384x2 where
  offsetDims := []
  collapsedSliceDims := [0]
  operandBatchingDims := []
  startIndicesBatchingDims := []
  startIndexMap := [0]
  indexVectorDim := 2
  sliceSizes := ![1]
  wf := gather_S64_S16384x2x1_S16384x2_n_0_n_n_0_2_1_wf

class Facts : Prop extends Facts₀ where

variable [Facts]
-- ==== Proof.Spec.lean ====
/-
  Token dispatch by owning device, as one function of the arrays.

  A token `t` (a row of `X`, 512 features) has two routed selections `k ∈ {0,1}`; `D (t,k)` is the id of the device that
  owns the selected expert. The dispatched buffer has, for each device `d < 8`, a slot per (token, selection):
      out (d, t, k, h) = [D (t,k) = d] · X (t, h)
  — the token's features where the selection lives on `d`, zero elsewhere. The bracket is the 0/1 indicator, a real
  number, so the product is a product of extended reals and no case on `X (t,h)` being infinite is ever needed: both
  programs form this same product, indicator on the left.

  The indicator is reached two ways: as the unsigned reading of the one-bit comparison word, and as the signed reading
  of that word zero-extended to 32 bits. A one-bit word zero-extended is 0 or 1 either way, so the two agree.
-/
import Idealize.ShloMosaic.PureOps.Ideal
import Idealize.ShloMosaic.Lib.ValueIdx

noncomputable section

namespace Cert.Dispatch

open Idealize.ShloMosaic Idealize.ShloMosaic.ValueIdx

/-- The indicator `[v = d]` of two 32-bit words, as an extended real: the comparison's one-bit word read as a natural. -/
def onehot (v d : BitVec 32) : EReal := (((IntOp.cmpi .eq v d).toNat : ℝ) : EReal)

/-- The unsigned integer-to-float conversion of the comparison bit is the indicator. -/
theorem uitofp_cmpi (v d : BitVec 32) :
    FloatOps.uitofp (F := Ideal) .f32 (IntOp.cmpi .eq v d) = onehot v d := rfl

/-- A one-bit word, zero-extended to 32 bits and read as a SIGNED integer, is the word read as a natural:
    bit 31 of the extension is clear, so the signed and unsigned readings coincide. -/
theorem toInt_setWidth_bit (b : BitVec 1) : (b.setWidth 32).toInt = (b.toNat : Int) := by
  by_cases h : b = 1#1
  · subst h; decide
  · have h0 := eq_zero_of_ne_one h
    subst h0; decide

/-- The signed conversion of the zero-extended comparison bit is the same indicator. -/
theorem sitofp_extui_cmpi (v d : BitVec 32) :
    FloatOps.sitofp (F := Ideal) .f32 ((IntOp.cmpi .eq v d).setWidth 32) = onehot v d := by
  show (((((IntOp.cmpi .eq v d).setWidth 32).toInt : ℝ)) : EReal) = _
  unfold onehot
  rw [toInt_setWidth_bit, Int.cast_natCast]

/-- One element of the dispatched buffer, over coordinates of literal extents: device `d`, token `t`, selection `k`,
    feature `h`. -/
def cell (X : (⟨2, ![16384, 512]⟩ : Shape).Idx → EReal) (D : (⟨2, ![16384, 2]⟩ : Shape).Idx → BitVec 32)
    (d : Fin 8) (t : Fin 16384) (k : Fin 2) (h : Fin 512) : EReal :=
  onehot (D (ix2 t k)) (BitVec.ofNat 32 d.val) * X (ix2 t h)

/-- The dispatched buffer `[8, 16384, 2, 512]` as ONE function of the token matrix `X` and the device ids `D`. -/
def dispatched (X : (⟨2, ![16384, 512]⟩ : Shape).Idx → EReal) (D : (⟨2, ![16384, 2]⟩ : Shape).Idx → BitVec 32) :
    (⟨4, ![8, 16384, 2, 512]⟩ : Shape).Idx → EReal :=
  fun i => cell X D (i 0) (i 1) (i 2) (i 3)

theorem dispatched_ix4 (X : (⟨2, ![16384, 512]⟩ : Shape).Idx → EReal) (D : (⟨2, ![16384, 2]⟩ : Shape).Idx → BitVec 32)
    (d : Fin 8) (t : Fin 16384) (k : Fin 2) (h : Fin 512) :
    dispatched X D (ix4 d t k h) = cell X D d t k h := rfl

end Cert.Dispatch

end
-- ==== Proof.RefValue.lean ====
/-
  The reference's masked product, read index by index, is the dispatched buffer of its own token matrix and device
  ids. At `(d, t, k, h)` the reference multiplies
    • the one-hot entry: its device ids `[16384, 2]` are broadcast along a new leading axis and compared with
      `iota 8` broadcast along the token and selection axes — at `(d, t, k)` that is the bit `[ids (t,k) = d]`, the
      iota's entry at `d` being the word `d` —, converted unsigned to a float and broadcast along the feature axis;
    • the token matrix `[16384, 512]` broadcast along the device and selection axes: at `(d, t, k, h)`, `X (t, h)`.
  Every layout step moves an index to an index, so the chain of reads is a chain of coordinate equations.
-/
import proofs.«129991_j15822659519276_1_alg».proof.Proof.Gen.ReferenceIdeal.Read
import proofs.«129991_j15822659519276_1_alg».proof.Proof.Spec

noncomputable section

namespace Cert.Dispatch.Ref

open Cert.ReferenceIdeal Cert.ReferenceIdeal.Gen Cert.ReferenceIdeal.Read
open Idealize.ShloMosaic Idealize.ShloMosaic.ValueIdx Cert.Dispatch

/-- The reference's product stage is `dispatched` of its reshaped tokens and its gathered device ids. -/
theorem product_eq (x0 : (⟨S4x4096x512, .f32⟩ : BufTy).Contents (Elt Ideal))
    (x1 : (⟨S4x4096x2, .i32⟩ : BufTy).Contents (Elt Ideal)) (x2 : (⟨S64, .i32⟩ : BufTy).Contents (Elt Ideal)) :
    val_main_v20 (F := Ideal) x0 x1 x2
      = dispatched (val_main_v0 (F := Ideal) x0) (val_main_v8 (F := Ideal) x1 x2) := by
  funext i
  obtain ⟨d, t, k, h, rfl⟩ : ∃ (d : Fin 8) (t : Fin 16384) (k : Fin 2) (h : Fin 512), i = ix4 d t k h :=
    ⟨i 0, i 1, i 2, i 3, eq_ix4 i⟩
  rw [dispatched_ix4, val_main_v20_apply, val_main_v18_apply, val_main_v16_apply, val_main_v15_apply,
    val_main_v14_apply, val_main_v12_apply, val_main_v9_apply, val_main_v13_apply, val_main_v11_apply,
    val_main_v10_apply, val_main_v19_apply, val_main_v17_apply]
  have eids : idx_main_v9 (idx_main_v12 (idx_main_v16 (idx_main_v18 (ix4 d t k h)))) = ix2 t k :=
    funext fun a => Fin.ext (by match a with | ⟨0, _⟩ => rfl | ⟨1, _⟩ => rfl)
  have etok : idx_main_v17 (idx_main_v19 (ix4 d t k h)) = ix2 t h :=
    funext fun a => Fin.ext (by match a with | ⟨0, _⟩ => rfl | ⟨1, _⟩ => rfl)
  rw [eids, etok]
  rfl

end Cert.Dispatch.Ref

end
-- ==== Proof.LibCasts.lean ====
/-
  Reads at an index of four small layout operations on arrays of rank 2 and 3, over literal coordinates:
  a unit axis inserted last (`[a, b] → [a, b, 1]`) or in the middle (`[a, c] → [a, 1, c]`) keeps the row-major
  position of every element, so the cast reads the operand at the remaining coordinates; and a broadcast along
  a unit axis (`[a, b, 1] → [a, b, c]`, `[a, 1, c] → [a, b, c]`) reads the operand at `0` on that axis.
-/
import Idealize.ShloMosaic.Lib.Pipeline.Value
import Idealize.ShloMosaic.Lib.ValueIdx

noncomputable section

namespace Cert.Dispatch.Casts

open Idealize.ShloMosaic Idealize.ShloMosaic.ValueIdx

variable {α : Type}

/-- An `[a, b]` array cast to `[a, b, 1]` reads, at `(i, j, u)`, the operand at `(i, j)`:
    `(i·b + j)·1 + u = i·b + j` since `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, j)`, the operand at `(i, j)`:
    `(i·1 + u)·c + j = i·c + j` since `u = 0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Cert.Dispatch.Casts

end
-- ==== Proof.Slab.lean ====
/-
  One device's slab of the kernel's output block.

  For a device id word `d`, the body forms from its token block `x : [256, 512]` and its device-id block
  `dv : [256, 2]` the array `[1, 256, 2, 512]`
      slab d x dv (0, r, k, h) = [dv (r,k) = d] · x (r, h):
  the comparison bit, zero-extended and converted signed, is laid along a new trailing axis and broadcast over the
  512 features; the token block gets a unit middle axis and is broadcast over the 2 selections; the two are
  multiplied and a unit leading axis is added. The body does this eight times, `d = 0 … 7`; its eight stored values
  are this one function at eight words, whatever the text's cut into named intermediate values.
-/
import proofs.«129991_j15822659519276_1_alg».proof.Proof.Gen.KernelIdeal.Skeleton
import proofs.«129991_j15822659519276_1_alg».proof.Proof.Spec
import proofs.«129991_j15822659519276_1_alg».proof.Proof.LibCasts
import Idealize.ShloMosaic.Lib.ValueLayout

noncomputable section

namespace Cert.Dispatch.Kern

open Cert.KernelIdeal Cert.KernelIdeal.Gen
open Idealize.ShloMosaic Idealize.ShloMosaic.ValueIdx Cert.Dispatch Cert.Dispatch.Casts

/-- The slab of device id `d`, in the body's own operations. -/
def slab (d : BitVec 32) (x : FVec Ideal S256x512 .f32) (dv : IVec S256x2 32) : FVec Ideal S1x256x2x512 .f32 :=
  shapeCast S1x256x2x512
    (mulf
      (broadcastTo S256x2x512
        (shapeCast S256x2x1 (sitofp .f32 (extui 32 (cmpi .eq dv (broadcast S256x2 d)) natLt_1_32)) shapeCasts_S256x2_S256x2x1)
        broadcasts_S256x2x1_S256x2x512)
      (broadcastTo S256x2x512 (shapeCast S256x1x512 x shapeCasts_S256x512_S256x1x512) broadcasts_S256x1x512_S256x2x512))
    shapeCasts_S256x2x512_S1x256x2x512

/-- The slab at `(u, r, k, h)`: the indicator of `dv (r, k) = d` times `x (r, h)`. -/
theorem slab_apply (d : BitVec 32) (x : FVec Ideal S256x512 .f32) (dv : IVec S256x2 32)
    (u : Fin 1) (r : Fin 256) (k : Fin 2) (h : Fin 512) :
    slab d x dv (ix4 u r k h) = onehot (dv (ix2 r k)) d * x (ix2 r h) := by
  unfold slab
  refine (shapeCast_abc_1abc_apply _ _ u r k h).trans ?_
  refine (mulf_apply _ _ _).trans ?_
  refine congrArg₂ (· * ·) ?_ ?_
  · refine (broadcastTo_ab1_abc_apply _ _ r k h).trans ?_
    refine (shapeCast_ab_ab1_apply _ _ r k (0 : Fin 1)).trans ?_
    exact sitofp_extui_cmpi _ _
  · refine (broadcastTo_a1c_abc_apply _ _ r k h).trans ?_
    exact shapeCast_ac_a1c_apply _ _ r (0 : Fin 1) h

/-! The body's loaded blocks pass through a cast to their own shape, which changes nothing. -/

theorem tokens_eq (v0 : Vec Ideal S256x512 .f32) : k0_pay3 (F := Ideal) v0 = v0 := shapeCast_self _ _
theorem ids_eq (v2 : Vec Ideal S256x2 .i32) : k0_pay4 (F := Ideal) v2 = v2 := shapeCast_self _ _

/-! The eight stored values are the slabs of the words `0 … 7`. -/

theorem store0 (v0 : Vec Ideal S256x512 .f32) (v2 : Vec Ideal S256x2 .i32) :
    k0_pay5 (F := Ideal) v0 v2 = slab 0#32 (k0_pay3 v0) (k0_pay4 v2) := rfl
theorem store1 (v0 : Vec Ideal S256x512 .f32) (v2 : Vec Ideal S256x2 .i32) :
    k0_pay6 (F := Ideal) v0 v2 = slab 1#32 (k0_pay3 v0) (k0_pay4 v2) := rfl
theorem store2 (v0 : Vec Ideal S256x512 .f32) (v2 : Vec Ideal S256x2 .i32) :
    k0_pay8 (F := Ideal) (k0_pay7 v0 v2) = slab 2#32 (k0_pay3 v0) (k0_pay4 v2) := rfl
theorem store3 (v1 : FVec Ideal S256x512 .f32) (v3 : IVec S256x2 32) :
    k0_pay9 (F := Ideal) v1 v3 = slab 3#32 v1 v3 := rfl
theorem store4 (v1 : FVec Ideal S256x512 .f32) (v3 : IVec S256x2 32) :
    k0_pay10 (F := Ideal) v1 v3 = slab 4#32 v1 v3 := rfl
theorem store5 (v1 : FVec Ideal S256x512 .f32) (v3 : IVec S256x2 32) :
    k0_pay11 (F := Ideal) v1 v3 = slab 5#32 v1 v3 := rfl
theorem store6 (v1 : FVec Ideal S256x512 .f32) (v3 : IVec S256x2 32) :
    k0_pay1 (F := Ideal) v1 (k0_pay12 v3) = slab 6#32 v1 v3 := rfl
theorem store7 (v1 : FVec Ideal S256x512 .f32) (v3 : IVec S256x2 32) :
    k0_pay2 (F := Ideal) v1 v3 = slab 7#32 v1 v3 := rfl

end Cert.Dispatch.Kern

end
-- ==== Proof.Block.lean ====
/-
  What the body leaves in its output block, as one function of its two input blocks.

  The block is `[8, 256, 2, 512]`: the body's store number `d` writes the slab of device id `d` through the rectangle
  `[d, d+1) × 256 × 2 × 512`. Element `(u, r, k, h)` of that rectangle sits at `(d + u, r, k, h) = (d, r, k, h)` of
  the block, so every store's value is the restriction to its rectangle of
      block (d, r, k, h) = [ids (r,k) = d] · tokens (r, h),
  and the eight rectangles tile the block: the block after the body IS that function.
-/
import proofs.«129991_j15822659519276_1_alg».proof.Proof.Gen.KernelIdeal.Frame
import proofs.«129991_j15822659519276_1_alg».proof.Proof.Slab

noncomputable section

namespace Cert.Dispatch.Kern

open Cert.KernelIdeal Cert.KernelIdeal.Gen
open Idealize.ShloMosaic Idealize.ShloMosaic.ValueIdx Cert.Dispatch

/-- One element of the block over literal coordinates. -/
def blockCell (x0 : Vec Ideal S256x512 .f32) (x1 : Vec Ideal S256x2 .i32)
    (d : Fin 8) (r : Fin 256) (k : Fin 2) (h : Fin 512) : EReal :=
  onehot (x1 (ix2 r k)) (BitVec.ofNat 32 d.val) * x0 (ix2 r h)

/-- The block as one function of the token block `x0` and the device-id block `x1`. -/
def blockFn (x0 : Vec Ideal S256x512 .f32) (x1 : Vec Ideal S256x2 .i32) : S8x256x2x512.Idx → EReal :=
  fun y => blockCell x0 x1 (y 0) (y 1) (y 2) (y 3)

theorem blockFn_ix4 (x0 : Vec Ideal S256x512 .f32) (x1 : Vec Ideal S256x2 .i32)
    (d : Fin 8) (r : Fin 256) (k : Fin 2) (h : Fin 512) :
    blockFn x0 x1 (ix4 d r k h) = onehot (x1 (ix2 r k)) (BitVec.ofNat 32 d.val) * x0 (ix2 r h) := rfl

/-- Where store `n`'s rectangle puts its element `(u, r, k, h)`: at `(n, r, k, h)` of the block. -/
theorem emb_store (n : Nat) (hn : n < 8)
    (inb : ∀ a, (![n, 0, 0, 0] : Fin 4 → Nat) a + S1x256x2x512.size a ≤ S8x256x2x512.size a)
    (u : Fin 1) (r : Fin 256) (k : Fin 2) (h : Fin 512) :
    (Rect.unit (s := S8x256x2x512) ![n, 0, 0, 0] S1x256x2x512.size inb).emb (ix4 u r k h)
      = ix4 (⟨n, hn⟩ : Fin 8) r k h := by
  funext a; apply Fin.ext
  match a with
  | ⟨0, _⟩ => show n + 1 * u.val = n; omega
  | ⟨1, _⟩ => show 0 + 1 * r.val = r.val; omega
  | ⟨2, _⟩ => show 0 + 1 * k.val = k.val; omega
  | ⟨3, _⟩ => show 0 + 1 * h.val = h.val; omega

/-- Store `n`'s value, the slab of the word `n`, is the block function under its rectangle. -/
theorem store_is_block (n : Nat) (hn : n < 8)
    (inb : ∀ a, (![n, 0, 0, 0] : Fin 4 → Nat) a + S1x256x2x512.size a ≤ S8x256x2x512.size a)
    (x0 : Vec Ideal S256x512 .f32) (x1 : Vec Ideal S256x2 .i32) (x : S1x256x2x512.Idx) :
    slab (BitVec.ofNat 32 n) x0 x1 x
      = blockFn x0 x1 ((Rect.unit (s := S8x256x2x512) ![n, 0, 0, 0] S1x256x2x512.size inb).emb x) := by
  obtain ⟨u, r, k, h, rfl⟩ : ∃ (u : Fin 1) (r : Fin 256) (k : Fin 2) (h : Fin 512), x = ix4 u r k h :=
    ⟨x 0, x 1, x 2, x 3, eq_ix4 x⟩
  refine (slab_apply _ x0 x1 u r k h).trans ?_
  exact (congrArg (blockFn x0 x1) (emb_store n hn inb u r k h)).symm

theorem zeros2 : (![0, 0] : Fin 2 → Nat) = fun _ => 0 := funext fun a => by fin_cases a <;> rfl

/-- THE BLOCK after the body is `blockFn` of the two input blocks. -/
theorem out_eq (x0 : Vec Ideal S256x512 .f32) (x1 : Vec Ideal S256x2 .i32) :
    out0_2 (F := Ideal) x0 x1 = blockFn x0 x1 := by
  funext y
  unfold out0_2
  simp only [View.ld_unit_zero (S := S256x512) zeros2, View.ld_unit_zero (S := S256x2) zeros2]
  rw [store0, store1, store2, store3, store4, store5, store6, store7]
  simp only [tokens_eq, ids_eq]
  refine View.canon_apply_of_pieces (Val := Elt Ideal) (e := .f32) (blockFn x0 x1) _ ?_ y (cover0_2 _ _ _ _ _ _ _ _ y)
  intro p hp
  simp only [List.mem_cons, List.mem_nil_iff, or_false] at hp
  rcases hp with rfl | rfl | rfl | rfl | rfl | rfl | rfl | rfl
  · intro x; exact store_is_block 7 (by decide) inb_S8x256x2x512_S1x256x2x512_7_0_0_0 x0 x1 x
  · intro x; exact store_is_block 6 (by decide) inb_S8x256x2x512_S1x256x2x512_6_0_0_0 x0 x1 x
  · intro x; exact store_is_block 5 (by decide) inb_S8x256x2x512_S1x256x2x512_5_0_0_0 x0 x1 x
  · intro x; exact store_is_block 4 (by decide) inb_S8x256x2x512_S1x256x2x512_4_0_0_0 x0 x1 x
  · intro x; exact store_is_block 3 (by decide) inb_S8x256x2x512_S1x256x2x512_3_0_0_0 x0 x1 x
  · intro x; exact store_is_block 2 (by decide) inb_S8x256x2x512_S1x256x2x512_2_0_0_0 x0 x1 x
  · intro x; exact store_is_block 1 (by decide) inb_S8x256x2x512_S1x256x2x512_1_0_0_0 x0 x1 x
  · intro x; exact store_is_block 0 (by decide) inb_S8x256x2x512_S1x256x2x512_0_0_0_0 x0 x1 x

end Cert.Dispatch.Kern

end
-- ==== Proof.Final.lean ====
/-
  From the blocks to the array the region leaves.

  The grid has 64 points; point `t` stages rows `[256·t, 256·t + 256)` of the token matrix `[16384, 512]` and of the
  device ids `[16384, 2]`, and writes back the block `8 × [256·t, 256·t + 256) × 2 × 512` of the output
  `[8, 16384, 2, 512]`. The block function of the staged rows is the dispatched buffer of the whole arrays read
  under the output's block: row `r` of the staged rows is row `256·t + r` of the arrays, and that is where the output
  block puts its row `r`. Every output row `i` lies in the block of point `i / 256`, so the 64 blocks cover the
  output and the array after the region is the dispatched buffer of the arrays the region found.
-/
import proofs.«129991_j15822659519276_1_alg».proof.Proof.Gen.KernelIdeal.Frame
import proofs.«129991_j15822659519276_1_alg».proof.Proof.Block
import Idealize.ShloMosaic.Lib.Pipeline.Value

set_option maxRecDepth 16384

noncomputable section

namespace Cert.Dispatch.Kern

open Cert.KernelIdeal Cert.KernelIdeal.Gen
open Idealize.ShloMosaic Idealize.ShloMosaic.TcCoe Idealize.ShloMosaic.ValueIdx Idealize.SL.Sem Cert.Dispatch
open Idealize.ShloMosaic.Pipeline (Dat)

/-- Staged rows against whole arrays, over variables: if the token block `x0` and the id block `x1` are rows
    `256·q + r` of `X` and `D`, the block function at `(d, r, k, h)` is the dispatched buffer at `(d, 256·q + r, k, h)`. -/
theorem blockCell_eq (X : (⟨2, ![16384, 512]⟩ : Shape).Idx → EReal) (D : (⟨2, ![16384, 2]⟩ : Shape).Idx → BitVec 32)
    (x0 : Vec Ideal S256x512 .f32) (x1 : Vec Ideal S256x2 .i32) (q : Nat) (hq : q ≤ 63)
    (hx0 : ∀ (r : Fin 256) (h : Fin 512), x0 (ix2 r h) = X (ix2 (⟨q * 256 + r.val, by omega⟩ : Fin 16384) h))
    (hx1 : ∀ (r : Fin 256) (k : Fin 2), x1 (ix2 r k) = D (ix2 (⟨q * 256 + r.val, by omega⟩ : Fin 16384) k))
    (d : Fin 8) (r : Fin 256) (k : Fin 2) (h : Fin 512) :
    blockCell x0 x1 d r k h = cell X D d (⟨q * 256 + r.val, by omega⟩ : Fin 16384) k h := by
  unfold blockCell cell
  rw [hx0, hx1]

variable (m : (ℓ : Loc nD τ sig) → Buf (Elt Ideal) ℓ)

/-- The printed index maps, decided over the 64 points: both inputs move with the output's row-block index and sit
    at block 0 on their other axis; the output's block index is 0 off the row axis. -/
theorem idx_facts : ∀ t : Fin cfg0.N,
    win0_0.index t (0 : Fin 2) = win0_2.index t (1 : Fin 4)
    ∧ win0_0.index t (1 : Fin 2) = 0
    ∧ win0_1.index t (0 : Fin 2) = win0_2.index t (1 : Fin 4)
    ∧ win0_1.index t (1 : Fin 2) = 0
    ∧ win0_2.index t (0 : Fin 4) = 0
    ∧ win0_2.index t (2 : Fin 4) = 0
    ∧ win0_2.index t (3 : Fin 4) = 0
    ∧ win0_2.index t (1 : Fin 4) ≤ 63 :=
  (by decide +kernel : ∀ t : Fin grid0.N, _)

/-- Every row block is some point's. -/
theorem idx_onto : ∀ q : Fin 64, ∃ t : Fin cfg0.N, win0_2.index t = ![0, q.val, 0, 0] :=
  (by decide +kernel : ∀ q : Fin 64, ∃ t : Fin grid0.N, win0_2.index t = ![0, q.val, 0, 0])

/-- WHAT POINT `t` WRITES BACK is block `t` of the dispatched buffer of the arrays the region found. -/
theorem flushed_eq (c : Dev nD) (t : Fin cfg0.N) :
    (dats m 0 c).flushed 2 t
      = ((cfg0.win 2).blk t).view.read (Elt Ideal) (dispatched (V m c main_v0) (V m c main_v8)) := by
  show (cfg0.win 2).cut (grid0.coords t) ((dats m 0 c).after 2 t) = _
  rw [after0_2, out_eq]
  obtain ⟨e0, e1, e2, e3, e4, e5, e6, e7⟩ := idx_facts t
  funext j
  show blockCell (iblk m c 0 t) (iblk m c 1 t) (j 0) (j 1) (j 2) (j 3)
    = cell (V m c main_v0) (V m c main_v8) ((((cfg0.win 2).blk t).view.emb j) 0) ((((cfg0.win 2).blk t).view.emb j) 1)
        ((((cfg0.win 2).blk t).view.emb j) 2) ((((cfg0.win 2).blk t).view.emb j) 3)
  have hj0 : (j 0).val < 8 := (j 0).isLt
  have hj1 : (j 1).val < 256 := (j 1).isLt
  have hj2 : (j 2).val < 2 := (j 2).isLt
  have hj3 : (j 3).val < 512 := (j 3).isLt
  refine (blockCell_eq (V m c main_v0) (V m c main_v8) (iblk m c 0 t) (iblk m c 1 t) (win0_2.index t (1 : Fin 4)) e7
    (fun r h => ?_) (fun r k => ?_) (j 0) (j 1) (j 2) (j 3)).trans ?_
  · show V m c main_v0 (((cfg0.win 0).blk t).view.emb (ix2 r h)) = V m c main_v0 _
    refine congrArg (V m c main_v0) (funext fun a => Fin.ext ?_)
    match a with
    | ⟨0, _⟩ => show win0_0.index t (0 : Fin 2) * 256 + 1 * r.val = win0_2.index t (1 : Fin 4) * 256 + r.val; omega
    | ⟨1, _⟩ => show win0_0.index t (1 : Fin 2) * 512 + 1 * h.val = h.val; omega
  · show V m c main_v8 (((cfg0.win 1).blk t).view.emb (ix2 r k)) = V m c main_v8 _
    refine congrArg (V m c main_v8) (funext fun a => Fin.ext ?_)
    match a with
    | ⟨0, _⟩ => show win0_1.index t (0 : Fin 2) * 256 + 1 * r.val = win0_2.index t (1 : Fin 4) * 256 + r.val; omega
    | ⟨1, _⟩ => show win0_1.index t (1 : Fin 2) * 2 + 1 * k.val = k.val; omega
  · have a0 : (j 0 : Fin 8) = (((cfg0.win 2).blk t).view.emb j) 0 :=
      Fin.ext (show (j 0).val = win0_2.index t (0 : Fin 4) * 8 + 1 * (j 0).val by omega)
    have a1 : (⟨win0_2.index t (1 : Fin 4) * 256 + (j 1).val, by omega⟩ : Fin 16384) = (((cfg0.win 2).blk t).view.emb j) 1 :=
      Fin.ext (show win0_2.index t (1 : Fin 4) * 256 + (j 1).val = win0_2.index t (1 : Fin 4) * 256 + 1 * (j 1).val by omega)
    have a2 : (j 2 : Fin 2) = (((cfg0.win 2).blk t).view.emb j) 2 :=
      Fin.ext (show (j 2).val = win0_2.index t (2 : Fin 4) * 2 + 1 * (j 2).val by omega)
    have a3 : (j 3 : Fin 512) = (((cfg0.win 2).blk t).view.emb j) 3 :=
      Fin.ext (show (j 3).val = win0_2.index t (3 : Fin 4) * 512 + 1 * (j 3).val by omega)
    rw [a0, a1, a2, a3]

/-- An index of the output is in point `t`'s block iff each coordinate is in the block's range on its axis. -/
theorem mem_blk (t : Fin cfg0.N) (i : S8x16384x2x512.Idx) :
    i ∈ ((cfg0.win 2).blk t).view.set ↔ ∀ a : Fin 4, win0_2.index t a * S8x256x2x512.size a ≤ (i a).val
      ∧ (i a).val < win0_2.index t a * S8x256x2x512.size a + S8x256x2x512.size a := by
  show i ∈ ((View.whole main_v9).slice (win0_2.rect t)).set ↔ _
  rw [View.set_slice_whole, Rect.mem_set_unit]
  exact Iff.rfl

/-- The blocks cover the output: row `i` is in the block of the point whose row-block index is `i / 256`. -/
theorem cover (i : S8x16384x2x512.Idx) :
    ∃ t : Fin cfg0.N, (cfg0.win 2).flush t = true ∧ i ∈ ((cfg0.win 2).blk t).view.set := by
  have hi0 : (i 0).val < 8 := (i 0).isLt
  have hi1 : (i 1).val < 16384 := (i 1).isLt
  have hi2 : (i 2).val < 2 := (i 2).isLt
  have hi3 : (i 3).val < 512 := (i 3).isLt
  obtain ⟨t, ht⟩ := idx_onto ⟨(i 1).val / 256, by omega⟩
  have q0 : win0_2.index t (0 : Fin 4) = 0 := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 256 ≤ (i 1).val ∧ (i 1).val < win0_2.index t (1 : Fin 4) * 256 + 256; omega
  | ⟨2, _⟩ => show win0_2.index t (2 : Fin 4) * 2 ≤ (i 2).val ∧ (i 2).val < win0_2.index t (2 : Fin 4) * 2 + 2; omega
  | ⟨3, _⟩ => show win0_2.index t (3 : Fin 4) * 512 ≤ (i 3).val ∧ (i 3).val < win0_2.index t (3 : Fin 4) * 512 + 512; omega

/-- THE ARRAY after the region: the dispatched buffer of the token matrix and device ids as the region found them. -/
theorem final (c : Dev nD) :
    (dats m 0 c).arrAt 2 cfg0.N = dispatched (V m c main_v0) (V m c main_v8) :=
  (dats m 0 c).arrAt_eq_of_cover 2 _ (fun t _ => flushed_eq m c t) cover

end Cert.Dispatch.Kern

end
-- ==== Proof.KernelRun.lean ====
/-
  The kernel's whole program, read as a value.

  Before the region the host reshapes the tokens `[4, 4096, 512] → [16384, 512]` and computes the device ids
  `[16384, 2]`: the expert indices reshaped, a negative index wrapped by `+ 64`, and the expert-to-device table
  gathered at them. These are, operation for operation, the first stages of the reference, so the region finds
  exactly the reference's token stage and device-id stage of the same arguments; neither is ever opened here.
  After the region the host reshapes the region's array `[8, 16384, 2, 512] → [8, 32768, 512]`, again the
  reference's last operation. So the kernel's result is that reshape of the dispatched buffer of those two stages.
-/
import proofs.«129991_j15822659519276_1_alg».proof.Proof.Final
import proofs.«129991_j15822659519276_1_alg».proof.Proof.Gen.ReferenceIdeal.Read
import Idealize.ShloMosaic.Lib.StableHlo.Run

set_option maxRecDepth 16384

noncomputable section

namespace Cert.Dispatch.Kern

open Cert.KernelIdeal Cert.KernelIdeal.Gen
open Idealize.ShloMosaic Idealize.ShloMosaic.TcCoe Idealize.ShloMosaic.ValueIdx Idealize.SL.Sem Cert.Dispatch
open Idealize.ShloMosaic.StableHlo
open Idealize.ShloMosaic.Pipeline (Dat)

variable (m : (ℓ : Loc nD τ sig) → Buf (Elt Ideal) ℓ) (ρ : Dev nD → PrngReg)

/-- The region finds, as its token matrix, the reference's token stage of the first argument. -/
theorem tokens_found (c : Dev nD) :
    V m c main_v0 = Cert.ReferenceIdeal.Read.val_main_v0 (F := Ideal) (m ((c : Thread nD τ).loc main_arg0)) := by
  show StableHlo.after hostOps0 (fun b => m (c, b)) (Proc.devRef .tc main_v0) = _
  after_results
  rfl

/-- The region finds, as its device ids, the reference's device-id stage of the second and third arguments. -/
theorem ids_found (c : Dev nD) :
    V m c main_v8 = Cert.ReferenceIdeal.Read.val_main_v8 (F := Ideal) (m ((c : Thread nD τ).loc main_arg1))
      (m ((c : Thread nD τ).loc main_arg2)) := by
  show StableHlo.after hostOps0 (fun b => m (c, b)) (Proc.devRef .tc main_v8) = _
  after_results
  rfl

/-- The program's result after the host's last line: the reshape of the array the region left. -/
theorem result_eq (c : Dev nD) :
    Pipeline.afterTail₀ cfgs (dats m) 0 (V0 m) [hostOps1] c main_v10
      = shapeCast S8x32768x512 ((dats m 0 c).arrAt 2 cfg0.N) shapeCasts_S8x16384x2x512_S8x32768x512 := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.tc.devRef main_v9)
        = (dats m 0 c).arrAt 2 cfg0.N from Pipeline.withArrays_arr spec0 launch0.win.arr_inj c (V0 m c) _ 2]
  rfl

/-- THE KERNEL'S RUN, read: every weakly fair execution terminates with the result at the reshape of the dispatched
    buffer of the reference's token stage and device-id stage of the arguments, and the arguments unchanged. -/
theorem run : θ_run defs (onTc (τ := τ) (main (F := Ideal))) ⟨m, fun _ => 0, ρ⟩ fun r => ∀ c : Dev nD,
      r.2.mem ((c.tc : Thread nD τ).loc main_v10)
        = shapeCast S8x32768x512
            (dispatched (Cert.ReferenceIdeal.Read.val_main_v0 (F := Ideal) (m ((c.tc : Thread nD τ).loc main_arg0)))
              (Cert.ReferenceIdeal.Read.val_main_v8 (F := Ideal) (m ((c.tc : Thread nD τ).loc main_arg1))
                (m ((c.tc : Thread nD τ).loc main_arg2))))
            shapeCasts_S8x16384x2x512_S8x32768x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v10 (Pipeline.mem_restRefs_of main_v10 (by decide) (by decide))).trans
        ((result_eq m c).trans (by rw [final m c, tokens_found m c, ids_found m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Dispatch.Kern

end
-- ==== Proof.lean ====
/-
  Token dispatch to devices: the kernel against its reference, over the extended reals.

  Both programs compute, for device `d < 8`, token `t < 16384`, selection `k < 2` and feature `h < 512`,
      out (d, 2·t + k, h) = [ids (t, k) = d] · X (t, h),
  where `X` is the token array reshaped to `[16384, 512]` and `ids` the device of each routed expert — the expert
  indices reshaped to `[16384, 2]`, a negative index wrapped by `+ 64`, the expert-to-device table gathered at them.
  The two host preludes are the same operations, and so is the final reshape `[8, 16384, 2, 512] → [8, 32768, 512]`;
  in between the reference forms the product in one piece from a one-hot array, while the kernel forms it 256
  tokens at a time, one device slab after another. The indicator is a real number (0 or 1) on both sides and sits on
  the left of the same product, so the two results are equal term for term: no law of the extended reals is used and
  the finiteness of the inputs is never opened.

    • Proof/Spec.lean      the indicator and the dispatched buffer as one function of `X` and `ids`
    • Proof/RefValue.lean  the reference's product stage is that function of its own earlier stages
    • Proof/LibCasts.lean  four small layout reads at an index
    • Proof/Slab.lean      the kernel body's eight stored values are one slab function at the words 0 … 7
    • Proof/Block.lean     the body's output block is one function of its two input blocks
    • Proof/Final.lean     the 64 blocks cover the output: the region's array is the dispatched buffer
    • Proof/KernelRun.lean the host prelude and the final reshape around the region; the kernel's run, read
  The three frames are the generated frame runs (the reference's is its run with the result dropped); the
  idealization rewrote nothing, so `preserves` asks nothing.
-/
import proofs.«129991_j15822659519276_1_alg».proof.Defs
import proofs.«129991_j15822659519276_1_alg».proof.Proof.Gen.Kernel
import proofs.«129991_j15822659519276_1_alg».proof.Proof.Gen.Kernel.Skeleton
import proofs.«129991_j15822659519276_1_alg».proof.Proof.Gen.Kernel.Launch
import proofs.«129991_j15822659519276_1_alg».proof.Proof.Gen.Kernel.Points
import proofs.«129991_j15822659519276_1_alg».proof.Proof.Gen.Kernel.Frame
import proofs.«129991_j15822659519276_1_alg».proof.Proof.Gen.KernelIdeal
import proofs.«129991_j15822659519276_1_alg».proof.Proof.Gen.KernelIdeal.Skeleton
import proofs.«129991_j15822659519276_1_alg».proof.Proof.Gen.KernelIdeal.Launch
import proofs.«129991_j15822659519276_1_alg».proof.Proof.Gen.KernelIdeal.Points
import proofs.«129991_j15822659519276_1_alg».proof.Proof.Gen.KernelIdeal.Frame
import proofs.«129991_j15822659519276_1_alg».proof.Proof.Gen.ReferenceIdeal
import proofs.«129991_j15822659519276_1_alg».proof.Proof.Gen.ReferenceIdeal.Run
import proofs.«129991_j15822659519276_1_alg».proof.Proof.Gen.ReferenceIdeal.Read
import proofs.«129991_j15822659519276_1_alg».proof.Proof.Gen.Pre_finite_inputs
import proofs.«129991_j15822659519276_1_alg».proof.Proof.RefValue
import proofs.«129991_j15822659519276_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end, from memories agreeing on the arguments, at the final reshape of the dispatched buffer of the same
    token stage and device-id stage: the kernel's by its run read as a value, the reference's because its product
    stage is that buffer. -/
theorem algebraic : Cert.algebraic_KernelIdeal_ReferenceIdeal := by
  intro m ρ m' ρ' _ hagree
  refine ⟨_, Cert.Dispatch.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  unfold Cert.ReferenceIdeal.Read.val_main_v21
  rw [Cert.Dispatch.Ref.product_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
